-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S1024x4096 : Shape := ⟨2, ![1024, 4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S8x1024x4096 .f32) (main_arg1 : FVec F S1024x4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S8x1024x4096 : Shape := ⟨3, ![8, 1024, 4096]⟩
abbrev S1024x4096 : Shape := ⟨2, ![1024, 4096]⟩
abbrev S8192x4096 : Shape := ⟨2, ![8192, 4096]⟩
abbrev S8192x1024 : Shape := ⟨2, ![8192, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x1024x4096, .f32⟩
  | .hbm, ⟨1, _⟩ => ⟨S1024x4096, .f32⟩
  | .hbm, ⟨2, _⟩ => ⟨S8192x4096, .f32⟩
  | .hbm, ⟨3, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x1024x4096_S8192x4096 : S8x1024x4096.ShapeCasts S8192x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S1024x4096 : Shape := ⟨2, ![1024, 4096]⟩
abbrev S8192x4096 : Shape := ⟨2, ![8192, 4096]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S1024x4096, .f32⟩
  | .hbm, ⟨2, _⟩ => ⟨S8192x4096, .f32⟩
  | .hbm, ⟨3, _⟩ => ⟨S8192x1024, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S8x1024x4096_S8192x4096 : S8x1024x4096.ShapeCasts S8192x4096
  dot_S8192x4096_S1024x4096_S8192x1024_1_1_0_0_n_n_wf : DotDims.WF S8192x4096 S1024x4096 S8192x1024 [1] [1] [0] [0] [] []

variable [Facts₀]

def dot_S8192x4096_S1024x4096_S8192x1024_1_1_0_0_n_n : DotDims S8192x4096 S1024x4096 S8192x1024 where
  lhsContracting := [1]
  rhsContracting := [1]
  lhsNonContracting := [0]
  rhsNonContracting := [0]
  lhsBatch := []
  rhsBatch := []
  wf := dot_S8192x4096_S1024x4096_S8192x1024_1_1_0_0_n_n_wf

class Facts : Prop extends Facts₀ where

variable [Facts]
-- ==== Proof.ProductSpec.lean ====
/-
  The mathematics of this certificate, with no program in sight.

  The result is the product of a matrix `a` (8192 rows, 4096 columns) with the TRANSPOSE of a matrix `b` (1024 rows,
  4096 columns): entry (r, n) is the sum, over all 4096 columns k, of a(r, k) · b(n, k), on the extended reals
  (`productT`). One side of the certificate forms that sum in one go; the other forms it in four stretches of 1024
  consecutive columns (`stretch`), adding stretch after stretch onto zero. The two agree because addition on the
  extended reals is commutative and associative — also at the infinities, so nothing here asks the entries to be
  finite — and a sum over 4096 = 4 · 1024 columns is the sum of its four stretches (`sum_stretches`,
  `productT_eq_stretches`).
-/
import Idealize.ShloMosaic.PureOps.Ideal
import Idealize.ShloMosaic.Lib.ValueIdx

noncomputable section

open scoped BigOperators

namespace Cert.ProductSpec

open Idealize.ShloMosaic Idealize.ShloMosaic.ValueIdx

/-- Column `j` of stretch `s`: column `1024 · s + j` of the 4096. -/
def col (s : Fin 4) (j : Fin 1024) : Fin 4096 := ⟨1024 * s.val + j.val, by have := s.isLt; have := j.isLt; omega⟩

theorem col_val (s : Fin 4) (j : Fin 1024) : (col s j).val = 1024 * s.val + j.val := rfl

/-- The product with the transpose, entry by entry: the sum over every column of the two rows' products. -/
def productT (a : (⟨2, ![8192, 4096]⟩ : Shape).Idx → EReal) (b : (⟨2, ![1024, 4096]⟩ : Shape).Idx → EReal) :
    (⟨2, ![8192, 1024]⟩ : Shape).Idx → EReal :=
  fun i => ∑ k : Fin 4096, a (ix2 (i 0) k) * b (ix2 (i 1) k)

/-- One stretch's share of entry (r, n): the sum over the stretch's 1024 columns. -/
def stretch (a : (⟨2, ![8192, 4096]⟩ : Shape).Idx → EReal) (b : (⟨2, ![1024, 4096]⟩ : Shape).Idx → EReal)
    (r : Fin 8192) (n : Fin 1024) (s : Fin 4) : EReal :=
  ∑ j : Fin 1024, a (ix2 r (col s j)) * b (ix2 n (col s j))

/-- The first `c` stretches' shares of entry (r, n), added one after the other onto zero — what an accumulator
    that starts at zero holds after `c` stretches. -/
def partialSum (a : (⟨2, ![8192, 4096]⟩ : Shape).Idx → EReal) (b : (⟨2, ![1024, 4096]⟩ : Shape).Idx → EReal)
    (r : Fin 8192) (n : Fin 1024) : Nat → EReal
  | 0 => 0
  | c + 1 => partialSum a b r n c + (if h : c < 4 then stretch a b r n ⟨c, h⟩ else 0)

/-- One more stretch: the accumulator after `k + 1` stretches is the accumulator after `k` plus stretch `k`'s share. -/
theorem partialSum_succ (a : (⟨2, ![8192, 4096]⟩ : Shape).Idx → EReal) (b : (⟨2, ![1024, 4096]⟩ : Shape).Idx → EReal)
    (r : Fin 8192) (n : Fin 1024) (k : Nat) (hk : k < 4) :
    partialSum a b r n (k + 1) = partialSum a b r n k + stretch a b r n ⟨k, hk⟩ := by
  show partialSum a b r n k + (if h : k < 4 then stretch a b r n ⟨k, h⟩ else 0) = _
  rw [dif_pos hk]

/-- A sum over 4096 columns is the sum, over the four stretches, of the sums over each stretch's 1024 columns: the
    columns are re-indexed by (stretch, column within it). Holds in every commutative additive monoid. -/
theorem sum_stretches {M : Type*} [AddCommMonoid M] (f : Fin 4096 → M) :
    ∑ k : Fin 4096, f k = ∑ s : Fin 4, ∑ j : Fin 1024, f (col s j) := by
  let e : Fin 4 × Fin 1024 ≃ Fin 4096 := (finProdFinEquiv : Fin 4 × Fin 1024 ≃ Fin (4 * 1024))
  have he : ∀ s j, e (s, j) = col s j := fun s j => Fin.ext (by
    show (finProdFinEquiv (s, j)).val = _
    rw [finProdFinEquiv_apply_val, col_val]
    show j.val + 1024 * s.val = 1024 * s.val + j.val
    omega)
  rw [← Equiv.sum_comp e f, Fintype.sum_prod_type]
  exact Finset.sum_congr rfl fun s _ => Finset.sum_congr rfl fun j _ => by rw [he]

/-- After all four stretches the accumulator holds the whole entry. -/
theorem productT_eq_partialSum (a : (⟨2, ![8192, 4096]⟩ : Shape).Idx → EReal) (b : (⟨2, ![1024, 4096]⟩ : Shape).Idx → EReal)
    (r : Fin 8192) (n : Fin 1024) : productT a b (ix2 r n) = partialSum a b r n 4 := by
  show ∑ k : Fin 4096, a (ix2 r k) * b (ix2 n k) = _
  rw [sum_stretches (fun k => a (ix2 r k) * b (ix2 n k)), Fin.sum_univ_four]
  simp only [partialSum, stretch, zero_add]
  rfl

end Cert.ProductSpec

end
-- ==== Proof.PointStep.lean ====
/-
  What ONE grid point leaves behind, at any float instance.

  The body keeps a [512, 1024] accumulator next to its three blocks. At a point it (only at the first of a row block's
  four points) overwrites the accumulator with zeros, then loads its block `x0` of the left matrix, its block `x1` of
  the right matrix and the accumulator `acc`, and stores `step x0 x1 acc` — the accumulator plus the product of the
  two blocks — back into the accumulator; at the last of the four points it also copies the accumulator into the
  output block. So, whatever the buffers the blocks sit in:
    first point   : accumulator := step x0 x1 zeros
    middle points : accumulator := step x0 x1 acc
    last point    : accumulator := step x0 x1 acc,  output block := the same
  Each statement reads back the pieces the body's stores leave (one store covers the whole buffer, so the buffer
  holds that store's value; a load that follows a covering store reads the stored value).
-/
import proofs.«152296_j15496242004358_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.KernelIdeal.PointStep

open Cert.KernelIdeal Cert.KernelIdeal.Gen

variable {F : FTy → Type} [FloatOps F]

/-- A whole buffer is read and written from offset (0, 0). -/
theorem origin : (![0, 0] : Fin 2 → Nat) = fun _ => 0 := funext fun a => by fin_cases a <;> rfl

/-- The block of zeros the first point stores. -/
abbrev zeros : FVec F S512x1024 .f32 := k0_pay1 (F := F)

/-- What a point stores into the accumulator: the accumulator plus the product of its two blocks. -/
abbrev step (x0 : Vec F S512x1024 .f32) (x1 : Vec F S1024x1024 .f32) (acc : Vec F S512x1024 .f32) : FVec F S512x1024 .f32 :=
  k0_pay2 x0 x1 acc

/-- First point of a row block: the accumulator is reset, so it ends at `step x0 x1 zeros`, whatever it held. -/
theorem acc_first (c : Dev nD) (i : grid0.Coords) (a2 : Memref sig .tc .vmem S512x1024 .f32) (h2 : a2.IsWhole)
    (a3 : Memref sig .tc .vmem S1024x1024 .f32) (h3 : a3.IsWhole) (a4 : Memref sig .tc .vmem S512x1024 .f32) (h4 : a4.IsWhole)
    (a5 : Memref sig .tc .vmem S512x1024 .f32) (h5 : a5.IsWhole) (hc0 : cond0_0 i) (hc1 : ¬cond0_1 i)
    (x0 : Vec F S512x1024 .f32) (x1 : Vec F S1024x1024 .f32) :
    sout0_A_0 c i a2 h2 a3 h3 a4 h4 a5 h5 hc0 hc1 x0 x1 = step x0 x1 zeros := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1024) origin, View.readCov_unit_zero (S := S512x1024) _ origin]
  simp only [View.readAt_eq_ld, h2.read_unread, h3.read_unread, View.ld_unit_zero (S := S512x1024) origin,
    View.ld_unit_zero (S := S1024x1024) origin]

/-- A middle point: the accumulator `acc` ends at `step x0 x1 acc`. -/
theorem acc_middle (c : Dev nD) (i : grid0.Coords) (a2 : Memref sig .tc .vmem S512x1024 .f32) (h2 : a2.IsWhole)
    (a3 : Memref sig .tc .vmem S1024x1024 .f32) (h3 : a3.IsWhole) (a4 : Memref sig .tc .vmem S512x1024 .f32) (h4 : a4.IsWhole)
    (a5 : Memref sig .tc .vmem S512x1024 .f32) (h5 : a5.IsWhole) (hc0 : ¬cond0_0 i) (hc1 : ¬cond0_1 i)
    (x0 : Vec F S512x1024 .f32) (x1 : Vec F S1024x1024 .f32) (acc : Vec F S512x1024 .f32) :
    sout0_B_0 c i a2 h2 a3 h3 a4 h4 a5 h5 hc0 hc1 x0 x1 acc = step x0 x1 acc := by
  unfold sout0_B_0
  rw [View.read_writes_eq_canon _ _ _ (scover0_B_0 c i a2 h2 a3 h3 a4 h4 a5 h5 hc0 hc1 x0 x1 acc)]
  unfold kernelRun0_B
  dsimp only
  rw [View.canon_unit_zero origin]
  simp only [View.readAt_eq_ld, h2.read_unread, h3.read_unread, h5.read_unread, View.ld_unit_zero (S := S512x1024) origin,
    View.ld_unit_zero (S := S1024x1024) origin]

/-- The last point: the accumulator `acc` ends at `step x0 x1 acc` … -/
theorem acc_last (c : Dev nD) (i : grid0.Coords) (a2 : Memref sig .tc .vmem S512x1024 .f32) (h2 : a2.IsWhole)
    (a3 : Memref sig .tc .vmem S1024x1024 .f32) (h3 : a3.IsWhole) (a4 : Memref sig .tc .vmem S512x1024 .f32) (h4 : a4.IsWhole)
    (a5 : Memref sig .tc .vmem S512x1024 .f32) (h5 : a5.IsWhole) (hc0 : ¬cond0_0 i) (hc1 : cond0_1 i)
    (x0 : Vec F S512x1024 .f32) (x1 : Vec F S1024x1024 .f32) (acc : Vec F S512x1024 .f32) :
    sout0_C_0 c i a2 h2 a3 h3 a4 h4 a5 h5 hc0 hc1 x0 x1 acc = step x0 x1 acc := by
  unfold sout0_C_0
  rw [View.read_writes_eq_canon _ _ _ (scover0_C_0 c i a2 h2 a3 h3 a4 h4 a5 h5 hc0 hc1 x0 x1 acc)]
  unfold kernelRun0_C
  dsimp only
  sl_unfold_words
  rw [View.canon_unit_zero origin]
  simp only [View.readAt_eq_ld, h2.read_unread, h3.read_unread, h5.read_unread, View.ld_unit_zero (S := S512x1024) origin,
    View.ld_unit_zero (S := S1024x1024) origin]

/-- … and the output block is a copy of it. -/
theorem out_last (c : Dev nD) (i : grid0.Coords) (a2 : Memref sig .tc .vmem S512x1024 .f32) (h2 : a2.IsWhole)
    (a3 : Memref sig .tc .vmem S1024x1024 .f32) (h3 : a3.IsWhole) (a4 : Memref sig .tc .vmem S512x1024 .f32) (h4 : a4.IsWhole)
    (a5 : Memref sig .tc .vmem S512x1024 .f32) (h5 : a5.IsWhole) (hc0 : ¬cond0_0 i) (hc1 : cond0_1 i)
    (x0 : Vec F S512x1024 .f32) (x1 : Vec F S1024x1024 .f32) (acc : Vec F S512x1024 .f32) :
    out0_C_2 c i a2 h2 a3 h3 a4 h4 a5 h5 hc0 hc1 x0 x1 acc = step x0 x1 acc := by
  unfold out0_C_2
  rw [View.read_writes_eq_canon _ _ _ (cover0_C_2 c i a2 h2 a3 h3 a4 h4 a5 h5 hc0 hc1 x0 x1 acc)]
  unfold kernelRun0_C
  dsimp only
  sl_unfold_words
  rw [View.canon_unit_zero origin, View.readCov_unit_zero (S := S512x1024) _ origin]
  simp only [View.readAt_eq_ld, h2.read_unread, h3.read_unread, h5.read_unread, View.ld_unit_zero (S := S512x1024) origin,
    View.ld_unit_zero (S := S1024x1024) origin]

end Cert.KernelIdeal.PointStep

end
-- ==== Proof.StepValue.lean ====
/-
  One point's step, read at one entry, on the extended reals.

  At the ideal instance a change of float format is the identity and the matrix unit's product into a block of zeros
  is the plain sum of products over the contracted axis. Both blocks are contracted along their SECOND axis (the right
  block enters transposed), so entry (r, n) of `step x0 x1 acc` is
      acc(r, n) + ∑ j < 1024, x0(r, j) · x1(n, j),
  and every entry of the block of zeros is 0.
-/
import proofs.«152296_j15496242004358_1_alg».proof.Proof.PointStep
import Idealize.ShloMosaic.Lib.ValueIdx
import Idealize.ShloMosaic.PureOps.Ideal.Laws

noncomputable section

open scoped BigOperators
open Idealize.ShloMosaic Idealize.ShloMosaic.TcCoe Idealize.ShloMosaic.ValueIdx

namespace Cert.KernelIdeal.StepValue

open Cert.KernelIdeal Cert.KernelIdeal.Gen Cert.KernelIdeal.PointStep

/-- Every entry of the block of zeros is 0. -/
theorem zeros_apply (y : S512x1024.Idx) : (zeros (F := Ideal)) y = (0 : EReal) := by
  show Ideal.ofBits .f32 0x00000000#32 = 0
  exact Ideal.ofBits_zero_f32

/-- The left block is read at (the output's row, the contracted column): the row coordinate … -/
theorem left_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
/-- … and the column coordinate. -/
theorem left_col (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- The right block is read at (the output's COLUMN, the contracted column): its row coordinate … -/
theorem right_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
/-- … and its column coordinate. -/
theorem right_col (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of the two blocks into zeros, at entry (r, n): the sum over the 1024 contracted columns. -/
theorem product_apply (a : FVec Ideal S512x1024 .bf16) (b : FVec Ideal S1024x1024 .bf16) (r : Fin 512) (n : Fin 1024) :
    matmul dot_S512x1024_S1024x1024_S512x1024_1_1_0_0_n_n none a b (constant S512x1024 .f32 0x00000000#32) (ix2 r n)
      = ∑ j : Fin 1024, a (ix2 r j) * b (ix2 n j) := by
  simp only [matmul]
  rw [Ideal.matmul_constant_zero_apply,
    ← Equiv.sum_comp (contrEquiv1 dot_S512x1024_S1024x1024_S512x1024_1_1_0_0_n_n 1024 rfl rfl).symm]
  refine Finset.sum_congr rfl fun j _ => ?_
  have hj := contrEquiv1_symm_val dot_S512x1024_S1024x1024_S512x1024_1_1_0_0_n_n 1024 rfl rfl j
  have el : dot_S512x1024_S1024x1024_S512x1024_1_1_0_0_n_n.lhsIdx (ix2 r n)
      ((contrEquiv1 dot_S512x1024_S1024x1024_S512x1024_1_1_0_0_n_n 1024 rfl rfl).symm j) = ix2 r j := funext fun d => Fin.ext (by
    match d with
    | ⟨0, _⟩ => exact left_row _ _
    | ⟨1, _⟩ => exact (left_col _ _).trans hj)
  have er : dot_S512x1024_S1024x1024_S512x1024_1_1_0_0_n_n.rhsIdx (ix2 r n)
      ((contrEquiv1 dot_S512x1024_S1024x1024_S512x1024_1_1_0_0_n_n 1024 rfl rfl).symm j) = ix2 n j := funext fun d => Fin.ext (by
    match d with
    | ⟨0, _⟩ => exact right_row _ _
    | ⟨1, _⟩ => exact (right_col _ _).trans hj)
  rw [el, er]

/-- One point's step at entry (r, n): the accumulator's entry plus the two rows' products summed over the block's columns. -/
theorem step_apply (x0 : Vec Ideal S512x1024 .f32) (x1 : Vec Ideal S1024x1024 .f32) (acc : Vec Ideal S512x1024 .f32)
    (r : Fin 512) (n : Fin 1024) :
    step (F := Ideal) x0 x1 acc (ix2 r n) = acc (ix2 r n) + ∑ j : Fin 1024, x0 (ix2 r j) * x1 (ix2 n j) := by
  show k0_pay2 (F := Ideal) x0 x1 acc (ix2 r n) = _
  unfold k0_pay2
  simp only [shapeCast_self]
  rw [addf_apply, product_apply]
  rfl

end Cert.KernelIdeal.StepValue

end
-- ==== Proof.PointBlocks.lean ====
/-
  Which entries of the two matrices a grid point reads.

  The 64 points are numbered row-major over (row block, stretch): point `t` works on row block `t / 4` (512 rows of the
  result) and on stretch `t % 4` (1024 columns of the contraction). Its left block is rows 512·(t/4) … of the left
  matrix at columns 1024·(t%4) …, its right block is ALL 1024 rows of the right matrix at the same columns, and the
  output block is rows 512·(t/4) … of the result, all its 1024 columns. A block's entry (r, j) is therefore the matrix
  entry (512·(t/4) + r, 1024·(t%4) + j), resp. (r, 1024·(t%4) + j).
  The left matrix the region finds is the first argument with its two leading axes merged (the one operation @main
  performs before the region); the right matrix is the second argument as launched.
-/
import proofs.«152296_j15496242004358_1_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.PointBlocks

open Cert.KernelIdeal Cert.KernelIdeal.Gen

variable {F : FTy → Type} [FloatOps F]
variable (m : (ℓ : Loc nD τ sig) → Buf (Elt F) ℓ)

/-- The three windows' block indices at point `t`, decided over the 64 points: (row block, stretch) for the left matrix,
    (0, stretch) for the right one, (row block, 0) for the result. -/
theorem block_indices : ∀ t : Fin cfg0.N,
    win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- The left matrix as the region finds it. -/
abbrev leftMatrix (c : Dev nD) : S8192x4096.Idx → F .f32 := V m c main_v0
/-- The right matrix as the region finds it. -/
abbrev rightMatrix (c : Dev nD) : S1024x4096.Idx → F .f32 := V m c main_arg1

/-- Point `t`'s block of the left matrix. -/
def leftBlock (c : Dev nD) (t : Fin cfg0.N) : Vec F S512x1024 .f32 := iblk m c 0 t
/-- Point `t`'s block of the right matrix. -/
def rightBlock (c : Dev nD) (t : Fin cfg0.N) : Vec F S1024x1024 .f32 := iblk m c 1 t

/-- Entry (r, j) of the left block is entry (512·(t/4) + r, 1024·(t%4) + j) of the left matrix. -/
theorem leftBlock_apply (c : Dev nD) (t : Fin cfg0.N) (r : Fin 512) (j : Fin 1024) (R : Fin 8192) (K : Fin 4096)
    (hR : R.val = 512 * (t.val / 4) + r.val) (hK : K.val = 1024 * (t.val % 4) + j.val) :
    leftBlock m c t (ix2 r j) = leftMatrix m c (ix2 R K) := by
  obtain ⟨e0, e1, -⟩ := block_indices t
  unfold leftBlock iblk
  rw [View.read_apply]
  show V m c main_v0 (((cfg0.win 0).blk t).view.emb (ix2 r j)) = V m c main_v0 (ix2 R K)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * j.val = K.val; omega

/-- Entry (n, j) of the right block is entry (n, 1024·(t%4) + j) of the right matrix. -/
theorem rightBlock_apply (c : Dev nD) (t : Fin cfg0.N) (n : Fin 1024) (j : Fin 1024) (K : Fin 4096)
    (hK : K.val = 1024 * (t.val % 4) + j.val) :
    rightBlock m c t (ix2 n j) = rightMatrix m c (ix2 n K) := by
  obtain ⟨-, -, e2, e3, -⟩ := block_indices t
  unfold rightBlock iblk
  rw [View.read_apply]
  show V m c main_arg1 (((cfg0.win 1).blk t).view.emb (ix2 n j)) = V m c main_arg1 (ix2 n K)
  refine congrArg _ (funext fun a => Fin.ext ?_)
  match a with
  | ⟨0, _⟩ => show win0_1.index t (0 : Fin 2) * 1024 + 1 * n.val = n.val; omega
  | ⟨1, _⟩ => show win0_1.index t (1 : Fin 2) * 1024 + 1 * j.val = K.val; omega

/-- The left matrix the region finds is the first argument with its two leading axes merged. -/
theorem leftMatrix_eq (c : Dev nD) :
    leftMatrix m c = shapeCast S8192x4096 (m ((c : Thread nD τ).loc main_arg0)) shapeCasts_S8x1024x4096_S8192x4096 := by
  dsimp only [leftMatrix, Gen.V, Gen.hostOps0]
  after_results
  rfl

/-- The right matrix the region finds is the second argument as launched. -/
theorem rightMatrix_eq (c : Dev nD) : rightMatrix m c = m ((c : Thread nD τ).loc main_arg1) := V_main_arg1 m c

end Cert.KernelIdeal.PointBlocks

end
-- ==== Proof.Accumulate.lean ====
/-
  What the accumulator holds after each grid point.

  Point `t` works on row block `t / 4` and stretch `t % 4`. At the first point of a row block (t % 4 = 0) the accumulator
  is reset and then receives stretch 0's share; at each later point it receives that point's stretch on top of what
  the point before left. So after point `t` its entry (r, n) is the partial sum of the first `t % 4 + 1` stretches of
  entry (512·(t/4) + r, n) of the product — by induction on the point, never by listing the 64 points. At the last
  point of a row block (t % 4 = 3) all four stretches are in, the accumulator's entry is the product's entry, and the
  output block is a copy of the accumulator.
-/
import proofs.«152296_j15496242004358_1_alg».proof.Proof.ProductSpec
import proofs.«152296_j15496242004358_1_alg».proof.Proof.StepValue
import proofs.«152296_j15496242004358_1_alg».proof.Proof.PointBlocks

noncomputable section

open scoped BigOperators
open Idealize.ShloMosaic Idealize.ShloMosaic.TcCoe Idealize.SL.Sem Idealize.ShloMosaic.ValueIdx

namespace Cert.KernelIdeal.Accumulate

open Cert.KernelIdeal Cert.KernelIdeal.Gen Cert.KernelIdeal.PointStep Cert.KernelIdeal.StepValue Cert.KernelIdeal.PointBlocks
open Cert.ProductSpec

/-! ## At any float instance: each point's accumulator as one step over the point before -/

section AnyInstance
variable {F : FTy → Type} [FloatOps F]
variable (m : (ℓ : Loc nD τ sig) → Buf (Elt F) ℓ)

/-- After the first point of a row block the accumulator is one step over zeros. -/
theorem acc_at_first (c : Dev nD) (t : Fin cfg0.N) (h0 : t.val % 4 = 0) (h1 : ¬t.val % 4 = 3) :
    (outsAt0 m c t.val t.isLt).2 = step (leftBlock m c t) (rightBlock m c t) zeros := by
  rw [outsAt0_A m c t h0 h1]
  dsimp only
  exact acc_first c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- After a middle point it is one step over what the point before left. -/
theorem acc_at_middle (c : Dev nD) (t : Fin cfg0.N) (h0 : ¬t.val % 4 = 0) (h1 : ¬t.val % 4 = 3) :
    (outsAt0 m c t.val t.isLt).2
      = step (leftBlock m c t) (rightBlock m c t) (outsAt0 m c (t.val - 1) (Nat.lt_of_le_of_lt (Nat.sub_le _ _) t.isLt)).2 := by
  rw [outsAt0_B m c t h0 h1]
  dsimp only
  exact acc_middle c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After the last point of a row block likewise … -/
theorem acc_at_last (c : Dev nD) (t : Fin cfg0.N) (h0 : ¬t.val % 4 = 0) (h1 : t.val % 4 = 3) :
    (outsAt0 m c t.val t.isLt).2
      = step (leftBlock m c t) (rightBlock m c t) (outsAt0 m c (t.val - 1) (Nat.lt_of_le_of_lt (Nat.sub_le _ _) t.isLt)).2 := by
  rw [outsAt0_C m c t h0 h1]
  dsimp only
  exact acc_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

/-- … and there the output block holds the same step, so it holds what the accumulator holds. -/
theorem out_at_last (c : Dev nD) (t : Fin cfg0.N) (h0 : ¬t.val % 4 = 0) (h1 : t.val % 4 = 3) :
    (outsAt0 m c t.val t.isLt).1
      = step (leftBlock m c t) (rightBlock m c t) (outsAt0 m c (t.val - 1) (Nat.lt_of_le_of_lt (Nat.sub_le _ _) t.isLt)).2 := by
  rw [outsAt0_C m c t h0 h1]
  dsimp only
  exact out_last c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t)
    (outsAt0 m c (t.val - 1) (Nat.lt_of_le_of_lt (Nat.sub_le _ _) t.isLt)).2

theorem out_eq_acc_at_last (c : Dev nD) (t : Fin cfg0.N) (h0 : ¬t.val % 4 = 0) (h1 : t.val % 4 = 3) :
    (outsAt0 m c t.val t.isLt).1 = (outsAt0 m c t.val t.isLt).2 :=
  (out_at_last m c t h0 h1).trans (acc_at_last m c t h0 h1).symm

end AnyInstance

/-! ## On the extended reals: the accumulator is the partial sum of the stretches done -/

variable (m : (ℓ : Loc nD τ sig) → Buf (Elt Ideal) ℓ)

/-- What a point's step adds at entry (r, n): its stretch's share of entry (512·(t/4) + r, n) of the product. -/
theorem step_sum (c : Dev nD) (t : Fin cfg0.N) (r : Fin 512) (n : Fin 1024) (R : Fin 8192) (s : Fin 4)
    (hR : R.val = 512 * (t.val / 4) + r.val) (hs : s.val = t.val % 4) :
    ∑ j : Fin 1024, leftBlock m c t (ix2 r j) * rightBlock m c t (ix2 n j)
      = stretch (leftMatrix m c) (rightMatrix m c) R n s := by
  unfold stretch
  refine Finset.sum_congr rfl fun j _ => ?_
  rw [leftBlock_apply m c t r j R (col s j) hR (by rw [col_val, hs]),
    rightBlock_apply m c t n j (col s j) (by rw [col_val, hs])]

/-- THE RUNNING SUM. After point `p` the accumulator's entry (r, n) is the partial sum of the first `p % 4 + 1`
    stretches of entry (R, n) of the product, R = 512·(p/4) + r. -/
theorem acc_entry (c : Dev nD) : ∀ (p : ℕ) (h : p < cfg0.N) (r : Fin 512) (n : Fin 1024) (R : Fin 8192),
    R.val = 512 * (p / 4) + r.val →
    (outsAt0 m c p h).2 (ix2 r n) = partialSum (leftMatrix m c) (rightMatrix m c) R n (p % 4 + 1)
  | 0, h, r, n, R, hR => by
    rw [acc_at_first m c ⟨0, h⟩ rfl (by show ¬(0 : ℕ) % 4 = 3; decide), step_apply, zeros_apply,
      step_sum m c ⟨0, h⟩ r n R ⟨0, by decide⟩ hR rfl]
    exact (partialSum_succ _ _ R n 0 (by decide)).symm
  | p + 1, h, r, n, R, hR => by
    have hN : p + 1 < 64 := lt_of_lt_of_eq h N_0
    by_cases h0 : (p + 1) % 4 = 0
    · have h1 : ¬(p + 1) % 4 = 3 := by omega
      rw [acc_at_first m c ⟨p + 1, h⟩ h0 h1, step_apply, zeros_apply,
        step_sum m c ⟨p + 1, h⟩ r n R ⟨0, by decide⟩ hR h0.symm, h0]
      exact (partialSum_succ _ _ R n 0 (by decide)).symm
    · have hprev := acc_entry c p (Nat.lt_of_succ_lt h) r n R (by omega)
      have hk : p % 4 + 1 < 4 := by omega
      have hstep : (outsAt0 m c (p + 1) h).2
          = step (leftBlock m c ⟨p + 1, h⟩) (rightBlock m c ⟨p + 1, h⟩) (outsAt0 m c p (Nat.lt_of_succ_lt h)).2 := by
        by_cases h1 : (p + 1) % 4 = 3
        · exact acc_at_last m c ⟨p + 1, h⟩ h0 h1
        · exact acc_at_middle m c ⟨p + 1, h⟩ h0 h1
      rw [hstep, step_apply, hprev,
        step_sum m c ⟨p + 1, h⟩ r n R ⟨p % 4 + 1, hk⟩ hR (by show p % 4 + 1 = (p + 1) % 4; omega),
        show (p + 1) % 4 + 1 = (p % 4 + 1) + 1 by omega]
      exact (partialSum_succ _ _ R n (p % 4 + 1) hk).symm

/-- At the last point of a row block the output block's entry (r, n) is entry (512·(t/4) + r, n) of the product. -/
theorem out_entry (c : Dev nD) (t : Fin cfg0.N) (h1 : t.val % 4 = 3) (r : Fin 512) (n : Fin 1024) (R : Fin 8192)
    (hR : R.val = 512 * (t.val / 4) + r.val) :
    (outsAt0 m c t.val t.isLt).1 (ix2 r n) = productT (leftMatrix m c) (rightMatrix m c) (ix2 R n) := by
  have h0 : ¬t.val % 4 = 0 := by omega
  rw [out_eq_acc_at_last m c t h0 h1, acc_entry m c t.val t.isLt r n R hR, h1, productT_eq_partialSum]

end Cert.KernelIdeal.Accumulate

end
-- ==== Proof.ResultArray.lean ====
/-
  The result array after the run, on the extended reals.

  The output block of row block `b` is written back once, after that row block's last point `4·b + 3`, and holds the
  product's rows 512·b … 512·b + 511 (all 1024 columns). The sixteen row blocks tile the 8192 rows, so every entry of
  the result array is written by exactly the point `4·(row / 512) + 3`, and the array ends holding the whole product
  of the left matrix with the transpose of the right one.
-/
import proofs.«152296_j15496242004358_1_alg».proof.Proof.Accumulate
import proofs.«152296_j15496242004358_1_alg».proof.Proof.Gen.KernelIdeal.Value

noncomputable section

open scoped BigOperators
open Idealize.ShloMosaic Idealize.ShloMosaic.TcCoe Idealize.SL.Sem Idealize.ShloMosaic.ValueIdx
open Idealize.ShloMosaic.Pipeline (Dat)

namespace Cert.KernelIdeal.ResultArray

open Cert.KernelIdeal Cert.KernelIdeal.Gen Cert.KernelIdeal.PointBlocks Cert.KernelIdeal.Accumulate Cert.ProductSpec

variable (m : (ℓ : Loc nD τ sig) → Buf (Elt Ideal) ℓ) (ρ : Dev nD → PrngReg)

/-- The product of the left matrix with the transpose of the right one, as the region finds them. -/
abbrev product (c : Dev nD) : S8192x1024.Idx → EReal := productT (leftMatrix m c) (rightMatrix m c)

/-- What a row block's last point writes back is that row block of the product. -/
theorem flushed_eq (c : Dev nD) (t : Fin cfg0.N) (hf : (cfg0.win 2).flush t = true) :
    (dats m 0 c).flushed 2 t = ((cfg0.win 2).blk t).view.read (Elt Ideal) (product m c) := by
  have h1 : t.val % 4 = 3 := (flush0_2 t).mp hf
  obtain ⟨-, -, -, -, e4, e5⟩ := block_indices t
  have hN : cfg0.N = 64 := N_0
  rw [Cert.KernelIdeal.Value.flushed2]
  funext y
  obtain ⟨r, q, rfl⟩ : ∃ (r : Fin 512) (q : Fin 1024), y = ix2 r q := ⟨y 0, y 1, eq_ix2 y⟩
  rw [View.read_apply]
  have hlt : 512 * (t.val / 4) + r.val < 8192 := by have := t.isLt; omega
  show (outsAt0 m c t.val t.isLt).1 (ix2 r q) = product m c (((cfg0.win 2).blk t).view.emb (ix2 r q))
  rw [out_entry m c t h1 r q ⟨512 * (t.val / 4) + r.val, hlt⟩ rfl]
  refine congrArg _ (funext fun a => Fin.ext ?_)
  match a with
  | ⟨0, _⟩ => show 512 * (t.val / 4) + r.val = win0_2.index t (0 : Fin 2) * 512 + 1 * r.val; omega
  | ⟨1, _⟩ => show q.val = win0_2.index t (1 : Fin 2) * 1024 + 1 * q.val; omega

/-- An entry of the result array lies in point `t`'s output block iff each coordinate lies in the block's range. -/
theorem mem_block (t : Fin cfg0.N) (i : S8192x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v1).slice (win0_2.rect t)).set ↔ _
  rw [View.set_slice_whole, Rect.mem_set_unit]
  exact Iff.rfl

/-- Every entry (row, column) of the result array is written back by the last point of row block `row / 512`. -/
theorem covered (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 64 := N_0
  have hb : 4 * ((i 0).val / 512) + 3 < cfg0.N := by omega
  obtain ⟨-, -, -, -, e4, e5⟩ := block_indices ⟨4 * ((i 0).val / 512) + 3, hb⟩
  have e4' : win0_2.index ⟨4 * ((i 0).val / 512) + 3, hb⟩ (0 : Fin 2) = (i 0).val / 512 := by
    rw [e4]; show (4 * ((i 0).val / 512) + 3) / 4 = _; omega
  refine ⟨⟨4 * ((i 0).val / 512) + 3, hb⟩, (flush0_2 _).mpr (by show (4 * ((i 0).val / 512) + 3) % 4 = 3; omega), ?_⟩
  rw [mem_block]
  intro a
  match a with
  | ⟨0, _⟩ =>
    show win0_2.index ⟨4 * ((i 0).val / 512) + 3, hb⟩ (0 : Fin 2) * 512 ≤ (i 0).val
      ∧ (i 0).val < win0_2.index ⟨4 * ((i 0).val / 512) + 3, hb⟩ (0 : Fin 2) * 512 + 512
    omega
  | ⟨1, _⟩ =>
    show win0_2.index ⟨4 * ((i 0).val / 512) + 3, hb⟩ (1 : Fin 2) * 1024 ≤ (i 1).val
      ∧ (i 1).val < win0_2.index ⟨4 * ((i 0).val / 512) + 3, hb⟩ (1 : Fin 2) * 1024 + 1024
    omega

/-- So the result array ends holding the product. -/
theorem final (c : Dev nD) : (dats m 0 c).arrAt 2 cfg0.N = product m c :=
  (dats m 0 c).arrAt_eq_of_cover 2 (product m c) (fun t hf => flushed_eq m c t hf) covered

/-- The product, in terms of the arguments as launched: the first with its two leading axes merged, the second as it is. -/
theorem product_eq (c : Dev nD) : product m c
    = productT (shapeCast S8192x4096 (m ((c : Thread nD τ).loc main_arg0)) shapeCasts_S8x1024x4096_S8192x4096)
        (m ((c : Thread nD τ).loc main_arg1)) := by
  show productT (leftMatrix m c) (rightMatrix m c) = _
  rw [leftMatrix_eq, rightMatrix_eq]

/-- The run, read: every weakly fair execution ends with the result array at the product and the arguments unchanged. -/
theorem run : θ_run defs (onTc (τ := τ) (main (F := Ideal))) ⟨m, fun _ => 0, ρ⟩ fun r => ∀ c : Dev nD,
      r.2.mem ((c : Thread nD τ).loc main_v1) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ResultArray

end
-- ==== Proof.ReferenceProduct.lean ====
/-
  The reference, on the extended reals, is the same product.

  The reference merges the two leading axes of its first argument and contracts the result with the second argument
  along both second axes in ONE operation: entry (r, n) of its result is the sum over all 4096 columns k of
  left(r, k) · right(n, k) — the product with the transpose, as specified.
-/
import proofs.«152296_j15496242004358_1_alg».proof.Proof.ProductSpec
import proofs.«152296_j15496242004358_1_alg».proof.Proof.Gen.ReferenceIdeal.Read

noncomputable section

open scoped BigOperators
open Idealize.ShloMosaic Idealize.ShloMosaic.TcCoe Idealize.SL.Sem Idealize.ShloMosaic.ValueIdx

namespace Cert.ReferenceIdeal.RefProduct

open Cert.ReferenceIdeal Cert.ReferenceIdeal.Gen Cert.ReferenceIdeal.Read Cert.ProductSpec

/-- The reference's result is the product of its merged first argument with the transpose of its second. -/
theorem result_eq (x0 : (⟨S8x1024x4096, .f32⟩ : BufTy).Contents (Elt Ideal)) (x1 : (⟨S1024x4096, .f32⟩ : BufTy).Contents (Elt Ideal)) :
    val_main_v1 (F := Ideal) x0 x1
      = productT (shapeCast S8192x4096 x0 shapeCasts_S8x1024x4096_S8192x4096) x1 := by
  funext i
  rw [val_main_v1_apply]
  show _ = ∑ k : Fin 4096, _
  refine Finset.sum_congr rfl fun k _ => ?_
  have el : lidx_main_v1 i k = ix2 (i 0) k := funext fun a => Fin.ext (by
    match a with
    | ⟨0, _⟩ => rfl
    | ⟨1, _⟩ => rfl)
  have er : ridx_main_v1 i k = ix2 (i 1) k := funext fun a => Fin.ext (by
    match a with
    | ⟨0, _⟩ => rfl
    | ⟨1, _⟩ => rfl)
  rw [el, er]
  rfl

end Cert.ReferenceIdeal.RefProduct

end
-- ==== Proof.lean ====
/-
  A blocked matrix product against one whole matrix product.

  Both programs first merge the two leading axes of `A_locals` f32[8, 1024, 4096] into a matrix of 8192 rows and 4096
  columns, and both return its product with the TRANSPOSE of `B` f32[1024, 4096]: entry (r, n) of the f32[8192, 1024]
  result is ∑ₖ A(r, k) · B(n, k) over the 4096 columns k.
    * The reference contracts all 4096 columns in one operation.
    * The kernel walks a 16 × 4 grid: 16 row blocks of 512 rows, and for each of them four stretches of 1024 columns.
      It keeps a [512, 1024] accumulator, sets it to zero at a row block's first stretch, adds to it at every stretch
      the product of the [512, 1024] block of A and the [1024, 1024] block of B (both rounded to bf16 first, which on
      the extended reals changes nothing), and after the fourth stretch copies it into the row block's output block,
      which is then written back.
  On the extended reals the kernel's entry is therefore (((0 + S₀) + S₁) + S₂) + S₃, Sₛ the sum over stretch s's 1024
  columns, and the reference's is the sum over all 4096 columns: equal because addition of extended reals is
  commutative and associative, infinities included. The precondition (finite inputs) is not needed and never opened.

  The modules, in the order of the argument:
    ProductSpec       the product with the transpose, its stretches, and "the sum is the sum of its four stretches"
    PointStep         what one grid point leaves in the accumulator and the output block (any float instance)
    StepValue         that step read at one entry on the extended reals
    PointBlocks       which matrix entries a point's blocks hold; the matrices as the region finds them
    Accumulate        the accumulator after each point is the partial sum of the stretches done (induction on the point)
    ResultArray       the sixteen written-back blocks tile the result array: it ends holding the product
    ReferenceProduct  the reference's one contraction is the same product
  The runs themselves — that every weakly fair execution of each program terminates without a fault, leaves the
  arguments unchanged, and what it leaves in the result array block by block resp. as one term — are the imported
  generated modules; the idealization rewrote nothing, so `preserves` is `True`.
-/
import proofs.«152296_j15496242004358_1_alg».proof.Defs
import proofs.«152296_j15496242004358_1_alg».proof.Proof.Gen.Kernel
import proofs.«152296_j15496242004358_1_alg».proof.Proof.Gen.Kernel.Skeleton
import proofs.«152296_j15496242004358_1_alg».proof.Proof.Gen.Kernel.Launch
import proofs.«152296_j15496242004358_1_alg».proof.Proof.Gen.Kernel.Points
import proofs.«152296_j15496242004358_1_alg».proof.Proof.Gen.Kernel.Frame
import proofs.«152296_j15496242004358_1_alg».proof.Proof.Gen.KernelIdeal
import proofs.«152296_j15496242004358_1_alg».proof.Proof.Gen.KernelIdeal.Skeleton
import proofs.«152296_j15496242004358_1_alg».proof.Proof.Gen.KernelIdeal.Launch
import proofs.«152296_j15496242004358_1_alg».proof.Proof.Gen.KernelIdeal.Points
import proofs.«152296_j15496242004358_1_alg».proof.Proof.Gen.KernelIdeal.Frame
import proofs.«152296_j15496242004358_1_alg».proof.Proof.Gen.KernelIdeal.Value
import proofs.«152296_j15496242004358_1_alg».proof.Proof.Gen.ReferenceIdeal
import proofs.«152296_j15496242004358_1_alg».proof.Proof.Gen.ReferenceIdeal.Run
import proofs.«152296_j15496242004358_1_alg».proof.Proof.Gen.ReferenceIdeal.Read
import proofs.«152296_j15496242004358_1_alg».proof.Proof.Gen.Pre_finite_inputs
import proofs.«152296_j15496242004358_1_alg».proof.Proof.ResultArray
import proofs.«152296_j15496242004358_1_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the two arguments, the kernel's result array ends at the
    product of the merged first argument with the transpose of the second (block by block, stretch by stretch), and
    the reference's at the same product (in one contraction). -/
theorem algebraic : Cert.algebraic_KernelIdeal_ReferenceIdeal := by
  intro m ρ m' ρ' _ hagree
  refine ⟨fun c => Cert.KernelIdeal.ResultArray.product m c, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefProduct.result_eq, (hagree c).1, (hagree c).2]
  exact (Cert.KernelIdeal.ResultArray.product_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
